-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S50000x128 : Shape := ⟨2, ![50000, 128]⟩
abbrev S1000000 : Shape := ⟨1, ![1000000]⟩
abbrev S256x128 : Shape := ⟨2, ![256, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S128x3 .f32) (main_arg7 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x3 .f32 := Host.absf main_arg6
  let main_cst_6 : FVec F S_ .f32 := constant S_ .f32 0x7F800000#32
  let main_v20 : FVec F S128x3 .f32 := broadcastInDim S128x3 ![] bcast_S_S128x3 main_cst_6
  let main_v21 : IVec S128x3 1 := cmpf .olt main_v19 main_v20
  let main_c_7 : IVec S_ 1 := constantI S_ 1 1#1
  let main_v22 : IVec S_ 1 := (fun x v => Host.reduce IntOp.andi x v reducesTo_S128x3_S_d0_1 h_S_) main_v21 main_c_7
  let main_v23 : IVec S_ 1 := andi main_v18 main_v22
  let main_v24 : FVec F S3 .f32 := Host.absf main_arg7
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S200000x128 .f32) (main_arg1 : FVec F S50000x128 .f32) (main_arg2 : IVec S1000000 32) (main_arg3 : IVec S1000000 32) (main_arg4 : FVec F S256x128 .f32) (main_arg5 : FVec F S128 .f32) (main_arg6 : FVec F S128x3 .f32) (main_arg7 : FVec F S3 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S200000x128 : Shape := ⟨2, ![200000, 128]⟩
abbrev S50000x128 : Shape := ⟨2, ![50000, 128]⟩
abbrev S1000000 : Shape := ⟨1, ![1000000]⟩
abbrev S256x128 : Shape := ⟨2, ![256, 128]⟩
abbrev S128 : Shape := ⟨1, ![128]⟩
abbrev S128x3 : Shape := ⟨2, ![128, 3]⟩
abbrev S3 : Shape := ⟨1, ![3]⟩
abbrev S_ : Shape := ⟨0, ![]⟩
abbrev S1007616 : Shape := ⟨1, ![1007616]⟩
abbrev S1007616x1 : Shape := ⟨2, ![1007616, 1]⟩
abbrev S1007616x128 : Shape := ⟨2, ![1007616, 128]⟩
abbrev S128x128 : Shape := ⟨2, ![128, 128]⟩
abbrev S3x128 : Shape := ⟨2, ![3, 128]⟩
abbrev S1x128 : Shape := ⟨2, ![1, 128]⟩
abbrev S3x1 : Shape := ⟨2, ![3, 1]⟩
abbrev S3x1007616 : Shape := ⟨2, ![3, 1007616]⟩
abbrev S8192x128 : Shape := ⟨2, ![8192, 128]⟩
abbrev S3x8192 : Shape := ⟨2, ![3, 8192]⟩
abbrev S3x1000000 : Shape := ⟨2, ![3, 1000000]⟩
abbrev S1000000x3 : Shape := ⟨2, ![1000000, 3]⟩

abbrev nBuf : Space → Nat
  | .hbm => 45
  | .vmem => 11
  | .smem => 0
  | _ => 0

abbrev bufTy : (tb : Table) → Fin (tcTables nBuf tb) → BufTy
  | .hbm, ⟨0, _⟩ => ⟨S200000x128, .f32⟩
  | .hbm, ⟨1, _⟩ => ⟨S50000x128, .f32⟩
  | .hbm, ⟨2, _⟩ => ⟨S1000000, .i32⟩
  | .hbm, ⟨3, _⟩ => ⟨S1000000, .i32⟩
  | .hbm, ⟨4, _⟩ => ⟨S256x128, .f32⟩
  | .hbm, ⟨5, _⟩ => ⟨S128, .f32⟩
  | .hbm, ⟨6, _⟩ => ⟨S128x3, .f32⟩
  | .hbm, ⟨7, _⟩ => ⟨S3, .f32⟩
  | .hbm, ⟨8, _⟩ => ⟨S_, .i32⟩
  | .hbm, ⟨9, _⟩ => ⟨S_, .i32⟩
  | .hbm, ⟨10, _⟩ => ⟨S1007616, .i32⟩
  | .hbm, ⟨11, _⟩ => ⟨S_, .i32⟩
  | .hbm, ⟨12, _⟩ => ⟨S_, .i32⟩
  | .hbm, ⟨13, _⟩ => ⟨S1007616, .i32⟩
  | .hbm, ⟨14, _⟩ => ⟨S200000x128, .bf16⟩
  | .hbm, ⟨15, _⟩ => ⟨S50000x128, .bf16⟩
  | .hbm, ⟨16, _⟩ => ⟨S_, .i32⟩
  | .hbm, ⟨17, _⟩ => ⟨S1007616, .i32⟩
  | .hbm, ⟨18, _⟩ => ⟨S1007616, .i1⟩
  | .hbm, ⟨19, _⟩ => ⟨S_, .i32⟩
  | .hbm, ⟨20, _⟩ => ⟨S1007616, .i32⟩
  | .hbm, ⟨21, _⟩ => ⟨S1007616, .i32⟩
  | .hbm, ⟨22, _⟩ => ⟨S1007616, .i32⟩
  | .hbm, ⟨23, _⟩ => ⟨S1007616x1, .i32⟩
  | .hbm, ⟨24, _⟩ => ⟨S1007616x128, .bf16⟩
  | .hbm, ⟨25, _⟩ => ⟨S_, .i32⟩
  | .hbm, ⟨26, _⟩ => ⟨S1007616, .i32⟩
  | .hbm, ⟨27, _⟩ => ⟨S1007616, .i1⟩
  | .hbm, ⟨28, _⟩ => ⟨S_, .i32⟩
  | .hbm, ⟨29, _⟩ => ⟨S1007616, .i32⟩
  | .hbm, ⟨30, _⟩ => ⟨S1007616, .i32⟩
  | .hbm, ⟨31, _⟩ => ⟨S1007616, .i32⟩
  | .hbm, ⟨32, _⟩ => ⟨S1007616x1, .i32⟩
  | .hbm, ⟨33, _⟩ => ⟨S1007616x128, .bf16⟩
  | .hbm, ⟨34, _⟩ => ⟨S128x128, .f32⟩
  | .hbm, ⟨35, _⟩ => ⟨S128x128, .bf16⟩
  | .hbm, ⟨36, _⟩ => ⟨S128x128, .f32⟩
  | .hbm, ⟨37, _⟩ => ⟨S128x128, .bf16⟩
  | .hbm, ⟨38, _⟩ => ⟨S3x128, .f32⟩
  | .hbm, ⟨39, _⟩ => ⟨S3x128, .bf16⟩
  | .hbm, ⟨40, _⟩ => ⟨S1x128, .f32⟩
  | .hbm, ⟨41, _⟩ => ⟨S3x1, .f32⟩
  | .hbm, ⟨42, _⟩ => ⟨S3x1007616, .f32⟩
  | .hbm, ⟨43, _⟩ => ⟨S3x1000000, .f32⟩
  | .hbm, ⟨44, _⟩ => ⟨S1000000x3, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S3x128, .bf16⟩
  | .local _ .vmem, ⟨8, _⟩ => ⟨S3x1, .f32⟩
  | .local _ .vmem, ⟨9, _⟩ => ⟨S3x8192, .f32⟩
  | .local _ .vmem, ⟨10, _⟩ => ⟨S3x8192, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S1000000_S1007616_076160 : S1000000.Pads (![0] : Fin 1 → Nat) ![7616] ![0] S1007616
  h_S_ : 0 < S_.numel
  bitsLt_bf16_f32 : FTy.bits .bf16 < FTy.bits .f32
  bcast_S_S1007616 : S_.BroadcastsInDim S1007616 (![] : Fin 0 → Fin S1007616.rank)
  bcast_S1007616_S1007616x1_0 : S1007616.BroadcastsInDim S1007616x1 (![0] : Fin 1 → Fin S1007616x1.rank)
  slices_S256x128_S128x128_0_0 : S256x128.Slices ![0, 0] S128x128
  slices_S256x128_S128x128_128_0 : S256x128.Slices ![128, 0] S128x128
  transposes_S128x3_S3x128_1_0 : S128x3.Transposes [1, 0] S3x128
  shapeCasts_S128_S1x128 : S128.ShapeCasts S1x128
  shapeCasts_S3_S3x1 : S3.ShapeCasts S3x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x8192 : S3x1.Broadcasts S3x8192
  inb_S3x8192_S3x8192_0_0 : ∀ a, (![0, 0] : Fin 2 → Nat) a + S3x8192.size a ≤ S3x8192.size a
  h_S3x8192 : 0 < S3x8192.numel
  slices_S3x1007616_S3x1000000_0_0 : S3x1007616.Slices ![0, 0] S3x1000000
  transposes_S3x1000000_S1000000x3_1_0 : S3x1000000.Transposes [1, 0] S1000000x3
  gather_S200000x128_S1007616x1_S1007616x128_1_0_n_n_0_1_1128_wf : GatherDims.WF S200000x128 S1007616x1 S1007616x128 [1] [0] [] [0] [] 1 ![1, 128]
  gather_S50000x128_S1007616x1_S1007616x128_1_0_n_n_0_1_1128_wf : GatherDims.WF S50000x128 S1007616x1 S1007616x128 [1] [0] [] [0] [] 1 ![1, 128]
  dot_S8192x128_S128x128_S8192x128_1_0_0_1_n_n_wf : DotDims.WF S8192x128 S128x128 S8192x128 [1] [0] [0] [1] [] []
  dot_S3x128_S8192x128_S3x8192_1_1_0_0_n_n_wf : DotDims.WF S3x128 S8192x128 S3x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .bf16 = 32 ∨ (Rect.block (s := S1007616x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1007616x128.size a
  hwx0_1 : ∀ i : grid0.Coords, EltTy.bits .bf16 = 32 ∨ (Rect.block (s := S1007616x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .bf16 = 32 ∨ (Rect.block (s := S3x128) S3x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x8192.size a ≤ S3x1007616.size a
  hwx0_7 : ∀ i : grid0.Coords, EltTy.bits .f32 = 32 ∨ (Rect.block (s := S3x1007616) S3x8192.size (cc0_transform_7 i) (hinb0_7 i)).WholeWords (EltTy.packing .f32)

variable [Facts₀]

def gather_S200000x128_S1007616x1_S1007616x128_1_0_n_n_0_1_1128 : GatherDims S200000x128 S1007616x1 S1007616x128 where
  offsetDims := [1]
  collapsedSliceDims := [0]
  operandBatchingDims := []
  startIndicesBatchingDims := []
  startIndexMap := [0]
  indexVectorDim := 1
  sliceSizes := ![1, 128]
  wf := gather_S200000x128_S1007616x1_S1007616x128_1_0_n_n_0_1_1128_wf
def gather_S50000x128_S1007616x1_S1007616x128_1_0_n_n_0_1_1128 : GatherDims S50000x128 S1007616x1 S1007616x128 where
  offsetDims := [1]
  collapsedSliceDims := [0]
  operandBatchingDims := []
  startIndicesBatchingDims := []
  startIndexMap := [0]
  indexVectorDim := 1
  sliceSizes := ![1, 128]
  wf := gather_S50000x128_S1007616x1_S1007616x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S3x128_S8192x128_S3x8192_1_1_0_0_n_n : DotDims S3x128 S8192x128 S3x8192 where
  lhsContracting := [1]
  rhsContracting := [1]
  lhsNonContracting := [0]
  rhsNonContracting := [0]
  lhsBatch := []
  rhsBatch := []
  wf := dot_S3x128_S8192x128_S3x8192_1_1_0_0_n_n_wf

abbrev win0_0 : Pipeline.Window sig grid0 :=
  Pipeline.Window.ofSpec (Memref.whole main_v10) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S3x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000x128 : Shape := ⟨2, ![200000, 128]⟩
abbrev S50000x128 : Shape := ⟨2, ![50000, 128]⟩
abbrev S1000000 : Shape := ⟨1, ![1000000]⟩
abbrev S256x128 : Shape := ⟨2, ![256, 128]⟩
abbrev S128 : Shape := ⟨1, ![128]⟩
abbrev S128x3 : Shape := ⟨2, ![128, 3]⟩
abbrev S3 : Shape := ⟨1, ![3]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S1x128 : Shape := ⟨2, ![1, 128]⟩
abbrev S1000000x3 : Shape := ⟨2, ![1000000, 3]⟩
abbrev S1x3 : Shape := ⟨2, ![1, 3]⟩

abbrev nBuf : Space → Nat
  | .hbm => 38
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S50000x128, .f32⟩
  | .hbm, ⟨2, _⟩ => ⟨S1000000, .i32⟩
  | .hbm, ⟨3, _⟩ => ⟨S1000000, .i32⟩
  | .hbm, ⟨4, _⟩ => ⟨S256x128, .f32⟩
  | .hbm, ⟨5, _⟩ => ⟨S128, .f32⟩
  | .hbm, ⟨6, _⟩ => ⟨S128x3, .f32⟩
  | .hbm, ⟨7, _⟩ => ⟨S3, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x128, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S1000000x256, .f32⟩
  | .hbm, ⟨27, _⟩ => ⟨S1000000x128, .f32⟩
  | .hbm, ⟨28, _⟩ => ⟨S1x128, .f32⟩
  | .hbm, ⟨29, _⟩ => ⟨S1000000x128, .f32⟩
  | .hbm, ⟨30, _⟩ => ⟨S1000000x128, .f32⟩
  | .hbm, ⟨31, _⟩ => ⟨S_, .f32⟩
  | .hbm, ⟨32, _⟩ => ⟨S1000000x128, .f32⟩
  | .hbm, ⟨33, _⟩ => ⟨S1000000x128, .f32⟩
  | .hbm, ⟨34, _⟩ => ⟨S1000000x3, .f32⟩
  | .hbm, ⟨35, _⟩ => ⟨S1x3, .f32⟩
  | .hbm, ⟨36, _⟩ => ⟨S1000000x3, .f32⟩
  | .hbm, ⟨37, _⟩ => ⟨S1000000x3, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  gather_S200000x128_S1000000x1_S1000000x128_1_0_n_n_0_1_1128_wf : GatherDims.WF S200000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x3_S1000000x3_1_0_0_1_n_n_wf : DotDims.WF S1000000x128 S128x3 S1000000x3 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x3_S1000000x3_1_0_0_1_n_n : DotDims S1000000x128 S128x3 S1000000x3 where
  lhsContracting := [1]
  rhsContracting := [0]
  lhsNonContracting := [0]
  rhsNonContracting := [1]
  lhsBatch := []
  rhsBatch := []
  wf := dot_S1000000x128_S128x3_S1000000x3_1_0_0_1_n_n_wf

class Facts : Prop extends Facts₀ where

variable [Facts]
-- ==== Proof.LibRowGather.lean ====
/-
  Gathering rows of a table. For a table `x : [N, C]` and a column of start indices `idx : [R, 1]`, the
  gather with one collapsed row axis and one offset axis of full width `C` returns, at result entry
  `(r, k)`, the table's entry `(ρ, k)`, where the row `ρ` is the start index `idx[r, 0]` read as a signed
  integer and clamped into `[0, N − 1]`. The column coordinate passes through unchanged: the offset axis has
  start `0` and the slice is the whole row.
-/
import Idealize.ShloMosaic.Lib.ValueIdx

noncomputable section

namespace Cert.Lib.RowGather

open Idealize.ShloMosaic Idealize.ShloMosaic.ValueIdx

variable {α : Type}

/-- The dimension numbers of a row gather: result axis 1 is the offset axis, table axis 0 is collapsed and is
    the axis the start index addresses, the index vector lies along axis 1 of the start indices, and a slice is
    one row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- A row gather read at `(r, k)`: the table at the selected row and the same column. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (rowOf N hN (idx (ix2 r 0))) k) := by
  -- the two coordinates of the table index the gather reads, one axis at a time
  have hb : ∀ a, (rowDims N R C wf).batchCoord (ix2 r k) a = 0 := fun a =>
    GatherDims.batchCoord_eq_zero _ _ _ List.not_mem_nil
  have h0 : (rowDims N R C wf).start (ix2 r k) idx (0 : Fin 2) + (rowDims N R C wf).batchCoord (ix2 r k) (0 : Fin 2)
      + (rowDims N R C wf).offCoord (ix2 r k) (0 : Fin 2) = (rowOf N hN (idx (ix2 r 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N R C wf).start (ix2 r k) idx (1 : Fin 2) + (rowDims N R C wf).batchCoord (ix2 r k) (1 : Fin 2)
      + (rowDims N R C wf).offCoord (ix2 r k) (1 : Fin 2) = k.val := by
    have ne10 : ¬((1 : Fin 2) = 0) := by decide
    have hn : (1 : Fin 2) ∉ (rowDims N R C wf).startIndexMap := fun h =>
      ne10 (List.mem_singleton.mp h)
    have hk : (1 : Fin 2) ∈ (rowDims N R C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext a
  refine Fin.ext ?_
  match a with
  | ⟨0, _⟩ => exact h0
  | ⟨1, _⟩ => exact h1

end Cert.Lib.RowGather

end
-- ==== Proof.Spec.lean ====
/-
  The edge decoder as one function of its arguments, over the extended reals.

  For edge `e` with endpoints `row e`, `col e` the decoder gathers the user row `u = z_user[row e]` and the movie
  row `v = z_movie[col e]` (a negative index counts from the end of the table, and the gather clamps the result into
  the table), forms the hidden layer

      hid e h = max ((∑ k < 128, u k · W1[k, h]) + (∑ k < 128, v k · W1[128 + k, h]) + b1 h) 0,

  and returns `out[e, o] = (∑ h < 128, hid e h · W2[h, o]) + b2 o`.

  The hidden layer's two sums are one sum over the 256 rows of `W1` against the concatenated row `[u | v]`; that is the
  only rearrangement between the two programs besides the order of the factors in the second product. Both hold
  in any commutative semiring, so neither asks that an entry be finite.
-/
import proofs.«113925_j9320079033006_2_alg».proof.Proof.LibRowGather
import Idealize.ShloMosaic.PureOps.Ideal
import Idealize.ShloMosaic.Lib.ValueIdx

noncomputable section

open scoped BigOperators

namespace Cert.EdgeMlp

open Idealize.ShloMosaic Idealize.ShloMosaic.ValueIdx Cert.Lib.RowGather

/-- An index into a table of `n` rows as array indexing reads it: a negative index counts from the end. -/
def wrapIdx (n b : BitVec 32) : BitVec 32 := Scalar.select (IntOp.cmpi .slt b 0#32) (IntOp.addi b n) b

/-- The user-table row of edge index word `b`. -/
def userRow (b : BitVec 32) : Fin 200000 := rowOf 200000 (by decide) (wrapIdx 200000#32 b)
/-- The movie-table row of edge index word `b`. -/
def movieRow (b : BitVec 32) : Fin 50000 := rowOf 50000 (by decide) (wrapIdx 50000#32 b)

/-- Row `k` of the upper half of `W1`, and row `k` of its lower half. -/
abbrev upper (k : Fin 128) : Fin 256 := ⟨k.val, by omega⟩
abbrev lower (k : Fin 128) : Fin 256 := ⟨128 + k.val, by omega⟩

/-- The hidden layer at unit `h`, from the two gathered rows. -/
def hidden (u v : Fin 128 → EReal) (W1 : FVec Ideal ⟨2, ![256, 128]⟩ .f32) (b1 : FVec Ideal ⟨1, ![128]⟩ .f32)
    (h : Fin 128) : EReal :=
  max ((∑ k : Fin 128, u k * W1 (ix2 (upper k) h)) + (∑ k : Fin 128, v k * W1 (ix2 (lower k) h)) + b1 (ix1 h)) 0

/-- The decoder's result: entry `(e, o)` from the argument arrays. -/
def G (zu : FVec Ideal ⟨2, ![200000, 128]⟩ .f32) (zm : FVec Ideal ⟨2, ![50000, 128]⟩ .f32)
    (row col : IVec ⟨1, ![1000000]⟩ 32) (W1 : FVec Ideal ⟨2, ![256, 128]⟩ .f32) (b1 : FVec Ideal ⟨1, ![128]⟩ .f32)
    (W2 : FVec Ideal ⟨2, ![128, 3]⟩ .f32) (b2 : FVec Ideal ⟨1, ![3]⟩ .f32) : FVec Ideal ⟨2, ![1000000, 3]⟩ .f32 :=
  fun i =>
    (∑ h : Fin 128,
        hidden (fun k => zu (ix2 (userRow (row (ix1 (i 0)))) k)) (fun k => zm (ix2 (movieRow (col (ix1 (i 0)))) k)) W1 b1 h
          * W2 (ix2 h (i 1)))
      + b2 (ix1 (i 1))

/-- The same computation in the layout the tiled program works in, for `E` edge rows already gathered: `U`, `M` the
    gathered rows, `A`, `B` the two halves of `W1`, `c1` the bias as a row, `T` the transposed `W2`, `c2` the output
    bias as a column; the result is transposed, entry `(o, e)`. -/
def mlpT {E : Nat} (U M : FVec Ideal ⟨2, ![E, 128]⟩ .bf16) (A B : FVec Ideal ⟨2, ![128, 128]⟩ .bf16)
    (c1 : FVec Ideal ⟨2, ![1, 128]⟩ .f32) (T : FVec Ideal ⟨2, ![3, 128]⟩ .bf16) (c2 : FVec Ideal ⟨2, ![3, 1]⟩ .f32) :
    FVec Ideal ⟨2, ![3, E]⟩ .f32 :=
  fun i =>
    (∑ h : Fin 128,
        T (ix2 (i 0) h)
          * max ((∑ k : Fin 128, U (ix2 (i 1) k) * A (ix2 k h)) + (∑ k : Fin 128, M (ix2 (i 1) k) * B (ix2 k h))
              + c1 (ix2 0 h)) 0)
      + c2 (ix2 (i 0) 0)

/-- The transposed layout against the specification: when the gathered rows, the halves of `W1`, the transposed
    `W2` and the reshaped biases are what their names say, entry `(o, e')` of the tiled result is entry `(e, o)` of `G`
    (the second product's factors commuted). -/
theorem mlpT_eq_G {E : Nat} (U M : FVec Ideal ⟨2, ![E, 128]⟩ .bf16) (A B : FVec Ideal ⟨2, ![128, 128]⟩ .bf16)
    (c1 : FVec Ideal ⟨2, ![1, 128]⟩ .f32) (T : FVec Ideal ⟨2, ![3, 128]⟩ .bf16) (c2 : FVec Ideal ⟨2, ![3, 1]⟩ .f32)
    (zu : FVec Ideal ⟨2, ![200000, 128]⟩ .f32) (zm : FVec Ideal ⟨2, ![50000, 128]⟩ .f32)
    (row col : IVec ⟨1, ![1000000]⟩ 32) (W1 : FVec Ideal ⟨2, ![256, 128]⟩ .f32) (b1 : FVec Ideal ⟨1, ![128]⟩ .f32)
    (W2 : FVec Ideal ⟨2, ![128, 3]⟩ .f32) (b2 : FVec Ideal ⟨1, ![3]⟩ .f32)
    (e : Fin 1000000) (e' : Fin E) (o : Fin 3)
    (hU : ∀ k, U (ix2 e' k) = zu (ix2 (userRow (row (ix1 e))) k))
    (hM : ∀ k, M (ix2 e' k) = zm (ix2 (movieRow (col (ix1 e))) k))
    (hA : ∀ k h, A (ix2 k h) = W1 (ix2 (upper k) h)) (hB : ∀ k h, B (ix2 k h) = W1 (ix2 (lower k) h))
    (hc1 : ∀ h, c1 (ix2 0 h) = b1 (ix1 h)) (hT : ∀ h, T (ix2 o h) = W2 (ix2 h o)) (hc2 : c2 (ix2 o 0) = b2 (ix1 o)) :
    mlpT U M A B c1 T c2 (ix2 o e') = G zu zm row col W1 b1 W2 b2 (ix2 e o) := by
  unfold mlpT G hidden
  show (∑ h : Fin 128, T (ix2 o h) * max ((∑ k : Fin 128, U (ix2 e' k) * A (ix2 k h))
      + (∑ k : Fin 128, M (ix2 e' k) * B (ix2 k h)) + c1 (ix2 0 h)) 0) + c2 (ix2 o 0) = _
  rw [hc2]
  refine congrArg (· + b2 (ix1 o)) (Finset.sum_congr rfl fun h _ => ?_)
  rw [hT h, hc1 h, mul_comm]
  simp only [hU, hM, hA, hB]

/-- The tiled layout is local: entry `(o, r)` reads only row `r` of the two gathered arrays. So the result on a tile of
    rows is the result on the whole array at the tile's position, whenever the tile's rows are the array's rows there. -/
theorem mlpT_congr {E E' : Nat} (U M : FVec Ideal ⟨2, ![E, 128]⟩ .bf16) (U' M' : FVec Ideal ⟨2, ![E', 128]⟩ .bf16)
    (A B : FVec Ideal ⟨2, ![128, 128]⟩ .bf16) (c1 : FVec Ideal ⟨2, ![1, 128]⟩ .f32) (T : FVec Ideal ⟨2, ![3, 128]⟩ .bf16)
    (c2 : FVec Ideal ⟨2, ![3, 1]⟩ .f32) (o : Fin 3) (r : Fin E) (r' : Fin E')
    (hU : ∀ k, U (ix2 r k) = U' (ix2 r' k)) (hM : ∀ k, M (ix2 r k) = M' (ix2 r' k)) :
    mlpT U M A B c1 T c2 (ix2 o r) = mlpT U' M' A B c1 T c2 (ix2 o r') := by
  unfold mlpT
  show (∑ h : Fin 128, T (ix2 o h) * max ((∑ k : Fin 128, U (ix2 r k) * A (ix2 k h))
      + (∑ k : Fin 128, M (ix2 r k) * B (ix2 k h)) + c1 (ix2 0 h)) 0) + c2 (ix2 o 0)
    = (∑ h : Fin 128, T (ix2 o h) * max ((∑ k : Fin 128, U' (ix2 r' k) * A (ix2 k h))
      + (∑ k : Fin 128, M' (ix2 r' k) * B (ix2 k h)) + c1 (ix2 0 h)) 0) + c2 (ix2 o 0)
  simp only [hU, hM]

/-- A sum over the 256 rows of `W1` is the sum over its upper half plus the sum over its lower half. -/
theorem sum_256_split (f : Fin 256 → EReal) :
    ∑ k : Fin 256, f k = (∑ k : Fin 128, f (upper k)) + (∑ k : Fin 128, f (lower k)) :=
  Fin.sum_univ_add (a := 128) (b := 128) (fun k : Fin (128 + 128) => f k)

end Cert.EdgeMlp

end
-- ==== Proof.RefIsSpec.lean ====
/-
  The reference program computes the specification. Read one stage at a time: the index stages are the wrap of
  the argument's index word; each gather reads the row that word selects; the concatenated row `[u | v]` reads
  `u` on its first 128 columns and `v` on its last 128; the first product over the 256 rows of `W1` then splits
  into the two half sums of the hidden layer; the maximum with the zero constant is the maximum with `0`; and the
  second product and the output bias are the specification's last line.
-/
import proofs.«113925_j9320079033006_2_alg».proof.Proof.Gen.ReferenceIdeal.Read
import proofs.«113925_j9320079033006_2_alg».proof.Proof.Spec
import Idealize.ShloMosaic.PureOps.Ideal.Laws

noncomputable section

open scoped BigOperators

namespace Cert.EdgeMlp.Ref

open Cert.ReferenceIdeal Cert.ReferenceIdeal.Gen Cert.ReferenceIdeal.Read Cert.EdgeMlp Cert.Lib.RowGather
open Idealize.ShloMosaic Idealize.ShloMosaic.ValueIdx

/-- The start index the user gather reads for edge `e`: the edge's row word, wrapped. -/
theorem userIdx (x2 : (⟨S1000000, .i32⟩ : BufTy).Contents (Elt Ideal)) (e : Fin 1000000) :
    val_main_v5 (F := Ideal) x2 (ix2 e 0) = wrapIdx 200000#32 (x2 (ix1 e)) := by
  have ei : idx_main_v5 (ix2 e 0) = ix1 e := funext fun a => by match a with | ⟨0, _⟩ => rfl
  rw [val_main_v5_apply, val_main_v4_apply, val_main_v1_apply, val_main_v3_apply, val_main_v0_apply,
    val_main_v2_apply, val_main_c_apply, val_main_c_0_apply, ei]
  rfl

/-- The start index the movie gather reads for edge `e`: the edge's column word, wrapped. -/
theorem movieIdx (x3 : (⟨S1000000, .i32⟩ : BufTy).Contents (Elt Ideal)) (e : Fin 1000000) :
    val_main_v12 (F := Ideal) x3 (ix2 e 0) = wrapIdx 50000#32 (x3 (ix1 e)) := by
  have ei : idx_main_v12 (ix2 e 0) = ix1 e := funext fun a => by match a with | ⟨0, _⟩ => rfl
  rw [val_main_v12_apply, val_main_v11_apply, val_main_v8_apply, val_main_v10_apply, val_main_v7_apply,
    val_main_v9_apply, val_main_c_1_apply, val_main_c_2_apply, ei]
  rfl

/-- The gathered user row of edge `e`. -/
theorem userRow_eq (x0 : (⟨S200000x128, .f32⟩ : BufTy).Contents (Elt Ideal))
    (x2 : (⟨S1000000, .i32⟩ : BufTy).Contents (Elt Ideal)) (e : Fin 1000000) (k : Fin 128) :
    val_main_v6 (F := Ideal) x0 x2 (ix2 e k) = x0 (ix2 (userRow (x2 (ix1 e))) k) := by
  unfold val_main_v6
  rw [show gather_S200000x128_S1000000x1_S1000000x128_1_0_n_n_0_1_1128
      = rowDims 200000 1000000 128 gather_S200000x128_S1000000x1_S1000000x128_1_0_n_n_0_1_1128_wf from rfl]
  rw [gather_rows_apply (by decide), userIdx]
  rfl

/-- The gathered movie row of edge `e`. -/
theorem movieRow_eq (x1 : (⟨S50000x128, .f32⟩ : BufTy).Contents (Elt Ideal))
    (x3 : (⟨S1000000, .i32⟩ : BufTy).Contents (Elt Ideal)) (e : Fin 1000000) (k : Fin 128) :
    val_main_v13 (F := Ideal) x1 x3 (ix2 e k) = x1 (ix2 (movieRow (x3 (ix1 e))) k) := by
  unfold val_main_v13
  rw [show gather_S50000x128_S1000000x1_S1000000x128_1_0_n_n_0_1_1128
      = rowDims 50000 1000000 128 gather_S50000x128_S1000000x1_S1000000x128_1_0_n_n_0_1_1128_wf from rfl]
  rw [gather_rows_apply (by decide), movieIdx]
  rfl

/-- The concatenated row on its first 128 columns is the user row. -/
theorem cat_upper (x0 : (⟨S200000x128, .f32⟩ : BufTy).Contents (Elt Ideal))
    (x1 : (⟨S50000x128, .f32⟩ : BufTy).Contents (Elt Ideal))
    (x2 x3 : (⟨S1000000, .i32⟩ : BufTy).Contents (Elt Ideal)) (e : Fin 1000000) (k : Fin 128) :
    val_main_v14 (F := Ideal) x0 x1 x2 x3 (ix2 e (upper k)) = x0 (ix2 (userRow (x2 (ix1 e))) k) := by
  unfold val_main_v14
  rw [concatenate_pair_apply_left (t := S1000000x256) (s₁ := S1000000x128) (s₂ := S1000000x128) (1 : Fin 2)
    (val_main_v6 (F := Ideal) x0 x2) (val_main_v13 (F := Ideal) x1 x3)
    concatenates_S1000000x128_S1000000x128_S1000000x256_d1
    (ix2 e (upper k)) rfl (ix2 e k) (fun b => by match b with | ⟨0, _⟩ => rfl | ⟨1, _⟩ => rfl)]
  exact userRow_eq x0 x2 e k

/-- The concatenated row on its last 128 columns is the movie row. -/
theorem cat_lower (x0 : (⟨S200000x128, .f32⟩ : BufTy).Contents (Elt Ideal))
    (x1 : (⟨S50000x128, .f32⟩ : BufTy).Contents (Elt Ideal))
    (x2 x3 : (⟨S1000000, .i32⟩ : BufTy).Contents (Elt Ideal)) (e : Fin 1000000) (k : Fin 128) :
    val_main_v14 (F := Ideal) x0 x1 x2 x3 (ix2 e (lower k)) = x1 (ix2 (movieRow (x3 (ix1 e))) k) := by
  unfold val_main_v14
  rw [concatenate_pair_apply_right (t := S1000000x256) (s₁ := S1000000x128) (s₂ := S1000000x128) (1 : Fin 2)
    (val_main_v6 (F := Ideal) x0 x2) (val_main_v13 (F := Ideal) x1 x3)
    concatenates_S1000000x128_S1000000x128_S1000000x256_d1
    (ix2 e (lower k)) rfl rfl (ix2 e k)
    (fun b hb => by match b with | ⟨0, _⟩ => rfl | ⟨1, _⟩ => exact absurd rfl hb)
    (by show k.val + 128 = 128 + k.val; omega)]
  exact movieRow_eq x1 x3 e k

/-- The hidden stage at `(e, h)` is the specification's hidden layer of the two gathered rows. -/
theorem hidden_eq (x0 : (⟨S200000x128, .f32⟩ : BufTy).Contents (Elt Ideal))
    (x1 : (⟨S50000x128, .f32⟩ : BufTy).Contents (Elt Ideal))
    (x2 x3 : (⟨S1000000, .i32⟩ : BufTy).Contents (Elt Ideal)) (x4 : (⟨S256x128, .f32⟩ : BufTy).Contents (Elt Ideal))
    (x5 : (⟨S128, .f32⟩ : BufTy).Contents (Elt Ideal)) (e : Fin 1000000) (h : Fin 128) :
    val_main_v19 (F := Ideal) x0 x1 x2 x3 x4 x5 (ix2 e h)
      = hidden (fun k => x0 (ix2 (userRow (x2 (ix1 e))) k)) (fun k => x1 (ix2 (movieRow (x3 (ix1 e))) k)) x4 x5 h := by
  have el : ∀ k : Fin 256, lidx_main_v15 (ix2 e h) k = ix2 e k := fun k =>
    funext fun a => by match a with | ⟨0, _⟩ => rfl | ⟨1, _⟩ => rfl
  have er : ∀ k : Fin 256, ridx_main_v15 (ix2 e h) k = ix2 k h := fun k =>
    funext fun a => by match a with | ⟨0, _⟩ => rfl | ⟨1, _⟩ => rfl
  have eb : idx_main_v16 (idx_main_v17 (ix2 e h)) = ix1 h :=
    funext fun a => by match a with | ⟨0, _⟩ => rfl
  rw [val_main_v19_apply, val_main_v18_apply, val_main_v15_apply, val_main_v17_apply, val_main_v16_apply,
    val_main_call0_v0_apply, val_main_call0_cst_apply, eb]
  simp only [el, er]
  rw [sum_256_split]
  simp only [cat_upper, cat_lower]
  unfold hidden
  show max (_ + _) (Ideal.ofBits .f32 0x00000000#32) = _
  rw [Ideal.ofBits_zero_f32]

/-- THE REFERENCE IS THE SPECIFICATION: its last stage, as a function of the eight arguments, is `G`. -/
theorem ref_eq_G (x0 : (⟨S200000x128, .f32⟩ : BufTy).Contents (Elt Ideal))
    (x1 : (⟨S50000x128, .f32⟩ : BufTy).Contents (Elt Ideal))
    (x2 x3 : (⟨S1000000, .i32⟩ : BufTy).Contents (Elt Ideal)) (x4 : (⟨S256x128, .f32⟩ : BufTy).Contents (Elt Ideal))
    (x5 : (⟨S128, .f32⟩ : BufTy).Contents (Elt Ideal)) (x6 : (⟨S128x3, .f32⟩ : BufTy).Contents (Elt Ideal))
    (x7 : (⟨S3, .f32⟩ : BufTy).Contents (Elt Ideal)) :
    val_main_v23 (F := Ideal) x0 x1 x2 x3 x4 x5 x6 x7 = G x0 x1 x2 x3 x4 x5 x6 x7 := by
  funext i
  obtain ⟨e, o, rfl⟩ : ∃ (e : Fin 1000000) (o : Fin 3), i = ix2 e o := ⟨i 0, i 1, eq_ix2 i⟩
  have el : ∀ k : Fin 128, lidx_main_v20 (ix2 e o) k = ix2 e k := fun k =>
    funext fun a => by match a with | ⟨0, _⟩ => rfl | ⟨1, _⟩ => rfl
  have er : ∀ k : Fin 128, ridx_main_v20 (ix2 e o) k = ix2 k o := fun k =>
    funext fun a => by match a with | ⟨0, _⟩ => rfl | ⟨1, _⟩ => rfl
  have eb : idx_main_v21 (idx_main_v22 (ix2 e o)) = ix1 o :=
    funext fun a => by match a with | ⟨0, _⟩ => rfl
  rw [val_main_v23_apply, val_main_v20_apply, val_main_v22_apply, val_main_v21_apply, eb]
  simp only [el, er, hidden_eq]
  rfl

end Cert.EdgeMlp.Ref

end
-- ==== Proof.Payload.lean ====
/-
  The body's arithmetic on one tile of 8192 edges. The body loads the tile's gathered user and movie rows, the two
  halves of `W1`, the bias row, the transposed `W2` and the output bias column, and stores

      out[o, r] = (∑ h < 128, W2ᵀ[o, h] · max ((∑ k, U[r, k] · A[k, h]) + (∑ k, M[r, k] · B[k, h]) + b1[0, h]) 0) + b2[o, 0].

  Over the extended reals each matrix product into a zero accumulator is the plain sum over the contracted axis,
  the narrowing to the short float format is the identity, and the two broadcasts repeat a row and a column.
-/
import proofs.«113925_j9320079033006_2_alg».proof.Proof.Gen.KernelIdeal.Skeleton
import proofs.«113925_j9320079033006_2_alg».proof.Proof.Spec
import Idealize.ShloMosaic.PureOps.Ideal.Laws
import Idealize.ShloMosaic.Lib.Pipeline.Value
import Idealize.ShloMosaic.Lib.ValueIdx

noncomputable section

open scoped BigOperators

namespace Cert.EdgeMlp.Tile

open Cert.KernelIdeal Cert.KernelIdeal.Gen Cert.EdgeMlp
open Idealize.ShloMosaic Idealize.ShloMosaic.ValueIdx

/-! ## The first product: rows of the tile against a half of `W1` -/

theorem lhs1_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem lhs1_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs1_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs1_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- Entry `(r, h)` of a tile times a 128 × 128 matrix, into zero: the sum over the 128 shared columns. -/
theorem prod1_apply (x : FVec Ideal S8192x128 .bf16) (a : FVec Ideal S128x128 .bf16) (r : Fin 8192) (h : Fin 128) :
    matmul dot_S8192x128_S128x128_S8192x128_1_0_0_1_n_n none x a (constant S8192x128 .f32 0x00000000#32) (ix2 r h)
      = ∑ k : Fin 128, x (ix2 r k) * a (ix2 k h) := by
  simp only [matmul]
  rw [Ideal.matmul_constant_zero_apply,
    ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r h)
      ((contrEquiv1 dot_S8192x128_S128x128_S8192x128_1_0_0_1_n_n 128 rfl rfl).symm k) = ix2 r k :=
    funext fun b => Fin.ext (by
      match b with
      | ⟨0, _⟩ => exact lhs1_0 _ _
      | ⟨1, _⟩ => exact (lhs1_1 _ _).trans hk)
  have er : dot_S8192x128_S128x128_S8192x128_1_0_0_1_n_n.rhsIdx (ix2 r h)
      ((contrEquiv1 dot_S8192x128_S128x128_S8192x128_1_0_0_1_n_n 128 rfl rfl).symm k) = ix2 k h :=
    funext fun b => Fin.ext (by
      match b with
      | ⟨0, _⟩ => exact (rhs1_0 _ _).trans hk
      | ⟨1, _⟩ => exact rhs1_1 _ _)
  rw [el, er]

/-! ## The second product: the transposed `W2` against the rows of the hidden tile, contracting both second axes -/

theorem lhs2_0 (i : S3x8192.Idx) (q : dot_S3x128_S8192x128_S3x8192_1_1_0_0_n_n.contr.Idx) :
    (dot_S3x128_S8192x128_S3x8192_1_1_0_0_n_n.lhsIdx i q 0).val = (i 0).val := by
  unfold DotDims.lhsIdx
  rw [dif_neg (show ¬(0 : Fin S3x128.rank) ∈ dot_S3x128_S8192x128_S3x8192_1_1_0_0_n_n.lhsBatch by decide),
    dif_pos (show (0 : Fin S3x128.rank) ∈ dot_S3x128_S8192x128_S3x8192_1_1_0_0_n_n.lhsNonContracting by decide)]
  rfl
theorem lhs2_1 (i : S3x8192.Idx) (q : dot_S3x128_S8192x128_S3x8192_1_1_0_0_n_n.contr.Idx) :
    (dot_S3x128_S8192x128_S3x8192_1_1_0_0_n_n.lhsIdx i q 1).val = (q ⟨0, by decide⟩).val :=
  dot_S3x128_S8192x128_S3x8192_1_1_0_0_n_n.lhsIdx_val_of_single rfl i q
theorem rhs2_0 (i : S3x8192.Idx) (q : dot_S3x128_S8192x128_S3x8192_1_1_0_0_n_n.contr.Idx) :
    (dot_S3x128_S8192x128_S3x8192_1_1_0_0_n_n.rhsIdx i q 0).val = (i 1).val := by
  unfold DotDims.rhsIdx
  rw [dif_neg (show ¬(0 : Fin S8192x128.rank) ∈ dot_S3x128_S8192x128_S3x8192_1_1_0_0_n_n.rhsBatch by decide),
    dif_pos (show (0 : Fin S8192x128.rank) ∈ dot_S3x128_S8192x128_S3x8192_1_1_0_0_n_n.rhsNonContracting by decide)]
  rfl
theorem rhs2_1 (i : S3x8192.Idx) (q : dot_S3x128_S8192x128_S3x8192_1_1_0_0_n_n.contr.Idx) :
    (dot_S3x128_S8192x128_S3x8192_1_1_0_0_n_n.rhsIdx i q 1).val = (q ⟨0, by decide⟩).val :=
  dot_S3x128_S8192x128_S3x8192_1_1_0_0_n_n.rhsIdx_val_of_single rfl i q

/-- Entry `(o, r)` of a 3 × 128 matrix against the rows of a tile, into zero: the sum over the 128 shared columns. -/
theorem prod2_apply (t : FVec Ideal S3x128 .bf16) (y : FVec Ideal S8192x128 .bf16) (o : Fin 3) (r : Fin 8192) :
    matmul dot_S3x128_S8192x128_S3x8192_1_1_0_0_n_n none t y (constant S3x8192 .f32 0x00000000#32) (ix2 o r)
      = ∑ h : Fin 128, t (ix2 o h) * y (ix2 r h) := by
  simp only [matmul]
  rw [Ideal.matmul_constant_zero_apply,
    ← Equiv.sum_comp (contrEquiv1 dot_S3x128_S8192x128_S3x8192_1_1_0_0_n_n 128 rfl rfl).symm]
  refine Finset.sum_congr rfl fun k _ => ?_
  have hk := contrEquiv1_symm_val dot_S3x128_S8192x128_S3x8192_1_1_0_0_n_n 128 rfl rfl k
  have el : dot_S3x128_S8192x128_S3x8192_1_1_0_0_n_n.lhsIdx (ix2 o r)
      ((contrEquiv1 dot_S3x128_S8192x128_S3x8192_1_1_0_0_n_n 128 rfl rfl).symm k) = ix2 o k :=
    funext fun b => Fin.ext (by
      match b with
      | ⟨0, _⟩ => exact lhs2_0 _ _
      | ⟨1, _⟩ => exact (lhs2_1 _ _).trans hk)
  have er : dot_S3x128_S8192x128_S3x8192_1_1_0_0_n_n.rhsIdx (ix2 o r)
      ((contrEquiv1 dot_S3x128_S8192x128_S3x8192_1_1_0_0_n_n 128 rfl rfl).symm k) = ix2 r k :=
    funext fun b => Fin.ext (by
      match b with
      | ⟨0, _⟩ => exact rhs2_0 _ _
      | ⟨1, _⟩ => exact (rhs2_1 _ _).trans hk)
  rw [el, er]

/-! ## The two broadcasts -/

/-- The bias row repeated down the tile's 8192 rows. -/
theorem biasRow_apply (v : FVec Ideal S1x128 .f32) (r : Fin 8192) (h : Fin 128) :
    broadcastTo S8192x128 v broadcasts_S1x128_S8192x128 (ix2 r h) = v (ix2 0 h) :=
  broadcastTo_apply v broadcasts_S1x128_S8192x128 (ix2 r h) (ix2 0 h) (fun a => by
    match a with
    | ⟨0, _⟩ => show 0 = if (1 : Nat) = 1 then 0 else _; rw [if_pos rfl]
    | ⟨1, _⟩ => show h.val = if (128 : Nat) = 1 then 0 else _; rw [if_neg (by decide)]; rfl)

/-- The output bias column repeated along the tile's 8192 columns. -/
theorem biasCol_apply (v : FVec Ideal S3x1 .f32) (o : Fin 3) (r : Fin 8192) :
    broadcastTo S3x8192 v broadcasts_S3x1_S3x8192 (ix2 o r) = v (ix2 o 0) :=
  broadcastTo_apply v broadcasts_S3x1_S3x8192 (ix2 o r) (ix2 o 0) (fun a => by
    match a with
    | ⟨0, _⟩ => show o.val = if (3 : Nat) = 1 then 0 else _; rw [if_neg (by decide)]; rfl
    | ⟨1, _⟩ => show 0 = if (1 : Nat) = 1 then 0 else _; rw [if_pos rfl])

/-! ## The payload -/

/-- THE TILE'S STORE is the decoder in the transposed layout, on the 8192 rows the tile holds. -/
theorem pay_eq (x0 x1 : Vec Ideal S8192x128 .bf16) (x2 x3 : Vec Ideal S128x128 .bf16) (x4 : Vec Ideal S1x128 .f32)
    (x5 : Vec Ideal S3x128 .bf16) (x6 : Vec Ideal S3x1 .f32) :
    k0_pay1 (F := Ideal) x0 x1 x2 x3 x4 x5 x6 = mlpT (E := 8192) x0 x1 x2 x3 x4 x5 x6 := by
  funext j
  obtain ⟨o, r, rfl⟩ : ∃ (o : Fin 3) (r : Fin 8192), j = ix2 o r := ⟨j 0, j 1, eq_ix2 j⟩
  unfold k0_pay1
  simp only [shapeCast_self]
  rw [addf_apply, prod2_apply, biasCol_apply]
  unfold mlpT
  refine congrArg (· + x6 (ix2 o 0)) (Finset.sum_congr rfl fun h _ => ?_)
  rw [truncf_apply, maximumf_apply, addf_apply, addf_apply, prod1_apply, prod1_apply, biasRow_apply, broadcast_apply]
  show _ * max _ (Ideal.ofBits .f32 0x00000000#32) = _
  rw [Ideal.ofBits_zero_f32]

end Cert.EdgeMlp.Tile

end
-- ==== Proof.RegionBlocks.lean ====
/-
  The tiled region's output array after the run, as one function of the arrays the region finds.

  Point `t` of the 123-point grid reads rows `[8192·t, 8192·(t+1))` of the two gathered row arrays and the five small
  arrays whole, and writes columns `[8192·t, 8192·(t+1))` of the 3 × 1,007,616 output. What it writes is that block of
  the decoder in the transposed layout applied to the whole arrays, because entry `(o, j)` reads only row `j` of the
  gathered arrays. The 123 column blocks tile the output, so after the run the output array is that function.
-/
import proofs.«113925_j9320079033006_2_alg».proof.Proof.Gen.KernelIdeal.Frame
import proofs.«113925_j9320079033006_2_alg».proof.Proof.Payload
import Idealize.ShloMosaic.Lib.Pipeline.Value

set_option maxRecDepth 16384

noncomputable section

namespace Cert.EdgeMlp.Region

open Cert.KernelIdeal Cert.KernelIdeal.Gen Cert.EdgeMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The decoder in the transposed layout, of the seven arrays as the region finds them. -/
def regionOut (c : Dev nD) : S3x1007616.Idx → EReal :=
  mlpT (E := 1007616) (V m c main_v10) (V m c main_v17) (V m c main_v19) (V m c main_v21) (V m c main_v24)
    (V m c main_v23) (V m c main_v25)

/-- The printed index maps over the grid: the two gathered arrays move down by one block of rows per point, the
    five small arrays stay at their one block, the output moves right by one block of columns per point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

theorem point_lt (t : Fin cfg0.N) : t.val < 123 := lt_of_lt_of_eq t.isLt N_0

/-! ## Each input window's block at a point, read off the array the region finds -/

/-- Row `r` of the user block at point `t` is row `8192·t + r` of the gathered user array. -/
theorem blk_user (c : Dev nD) (t : Fin cfg0.N) (r : Fin 8192) (k : Fin 128) (e' : Fin 1007616)
    (he : e'.val = t.val * 8192 + r.val) : iblk m c 0 t (ix2 r k) = V m c main_v10 (ix2 e' k) := by
  obtain ⟨e0, e1, -⟩ := idx_facts t
  show V m c main_v10 (((cfg0.win 0).blk t).view.emb (ix2 r k)) = V m c main_v10 (ix2 e' k)
  have h : ((cfg0.win 0).blk t).view.emb (ix2 r k) = ix2 e' k := by
    funext a; apply Fin.ext
    match a with
    | ⟨0, _⟩ => show win0_0.index t (0 : Fin 2) * 8192 + 1 * r.val = e'.val; omega
    | ⟨1, _⟩ => show win0_0.index t (1 : Fin 2) * 128 + 1 * k.val = k.val; omega
  rw [h]

/-- Row `r` of the movie block at point `t` is row `8192·t + r` of the gathered movie array. -/
theorem blk_movie (c : Dev nD) (t : Fin cfg0.N) (r : Fin 8192) (k : Fin 128) (e' : Fin 1007616)
    (he : e'.val = t.val * 8192 + r.val) : iblk m c 1 t (ix2 r k) = V m c main_v17 (ix2 e' k) := by
  obtain ⟨-, -, e0, e1, -⟩ := idx_facts t
  show V m c main_v17 (((cfg0.win 1).blk t).view.emb (ix2 r k)) = V m c main_v17 (ix2 e' k)
  have h : ((cfg0.win 1).blk t).view.emb (ix2 r k) = ix2 e' k := by
    funext a; apply Fin.ext
    match a with
    | ⟨0, _⟩ => show win0_1.index t (0 : Fin 2) * 8192 + 1 * r.val = e'.val; omega
    | ⟨1, _⟩ => show win0_1.index t (1 : Fin 2) * 128 + 1 * k.val = k.val; omega
  rw [h]

/-- The five small windows hold their whole array at every point. -/
theorem blk_upper (c : Dev nD) (t : Fin cfg0.N) : iblk m c 2 t = V m c main_v19 := by
  obtain ⟨-, -, -, -, e0, e1, -⟩ := idx_facts t
  funext y
  show V m c main_v19 (((cfg0.win 2).blk t).view.emb y) = V m c main_v19 y
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [h]
theorem blk_lower (c : Dev nD) (t : Fin cfg0.N) : iblk m c 3 t = V m c main_v21 := by
  obtain ⟨-, -, -, -, -, -, e0, e1, -⟩ := idx_facts t
  funext y
  show V m c main_v21 (((cfg0.win 3).blk t).view.emb y) = V m c main_v21 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]
theorem blk_biasRow (c : Dev nD) (t : Fin cfg0.N) : iblk m c 4 t = V m c main_v24 := by
  obtain ⟨-, -, -, -, -, -, -, -, e0, e1, -⟩ := idx_facts t
  funext y
  show V m c main_v24 (((cfg0.win 4).blk t).view.emb y) = V m c main_v24 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [h]
theorem blk_w2t (c : Dev nD) (t : Fin cfg0.N) : iblk m c 5 t = V m c main_v23 := by
  obtain ⟨-, -, -, -, -, -, -, -, -, -, e0, e1, -⟩ := idx_facts t
  funext y
  show V m c main_v23 (((cfg0.win 5).blk t).view.emb y) = V m c main_v23 y
  have h : ((cfg0.win 5).blk t).view.emb y = y := by
    funext a; apply Fin.ext
    match a with
    | ⟨0, _⟩ => show win0_5.index t (0 : Fin 2) * 3 + 1 * (y 0).val = (y 0).val; omega
    | ⟨1, _⟩ => show win0_5.index t (1 : Fin 2) * 128 + 1 * (y 1).val = (y 1).val; omega
  rw [h]
theorem blk_biasCol (c : Dev nD) (t : Fin cfg0.N) : iblk m c 6 t = V m c main_v25 := by
  obtain ⟨-, -, -, -, -, -, -, -, -, -, -, -, e0, e1, -⟩ := idx_facts t
  funext y
  show V m c main_v25 (((cfg0.win 6).blk t).view.emb y) = V m c main_v25 y
  have h : ((cfg0.win 6).blk t).view.emb y = y := by
    funext a; apply Fin.ext
    match a with
    | ⟨0, _⟩ => show win0_6.index t (0 : Fin 2) * 3 + 1 * (y 0).val = (y 0).val; omega
    | ⟨1, _⟩ => show win0_6.index t (1 : Fin 2) * 1 + 1 * (y 1).val = (y 1).val; omega
  rw [h]

/-! ## What a point writes back -/

/-- WHAT POINT `t` WRITES BACK is block `t` of the decoder, in the transposed layout, of the whole arrays. -/
theorem flushed_eq (c : Dev nD) (t : Fin cfg0.N) :
    (dats m 0 c).flushed 7 t = ((cfg0.win 7).blk t).view.read (Elt Ideal) (regionOut m c) := by
  show (cfg0.win 7).cut (grid0.coords t) ((dats m 0 c).after 7 t) = _
  rw [after0_7]
  unfold out0_7
  rw [View.canon_unit_zero hz]
  simp only [View.ld_unit_zero (S := S8192x128) hz, View.ld_unit_zero (S := S128x128) hz,
    View.ld_unit_zero (S := S1x128) hz, View.ld_unit_zero (S := S3x128) hz, View.ld_unit_zero (S := S3x1) hz]
  rw [Tile.pay_eq, blk_upper, blk_lower, blk_biasRow, blk_w2t, blk_biasCol]
  obtain ⟨-, -, -, -, -, -, -, -, -, -, -, -, -, -, e0, e1⟩ := idx_facts t
  have ht := point_lt t
  funext j
  obtain ⟨o, r, rfl⟩ : ∃ (o : Fin 3) (r : Fin 8192), j = ix2 o r := ⟨j 0, j 1, eq_ix2 j⟩
  show mlpT (E := 8192) (iblk m c 0 t) (iblk m c 1 t) (V m c main_v19) (V m c main_v21) (V m c main_v24)
      (V m c main_v23) (V m c main_v25) (ix2 o r) = regionOut m c (((cfg0.win 7).blk t).view.emb (ix2 o r))
  have hr : r.val < 8192 := r.isLt
  have hemb : ((cfg0.win 7).blk t).view.emb (ix2 o r) = ix2 o (⟨t.val * 8192 + r.val, by omega⟩ : Fin 1007616) := by
    funext a; apply Fin.ext
    match a with
    | ⟨0, _⟩ => show win0_7.index t (0 : Fin 2) * 3 + 1 * o.val = o.val; omega
    | ⟨1, _⟩ => show win0_7.index t (1 : Fin 2) * 8192 + 1 * r.val = t.val * 8192 + r.val; omega
  rw [hemb]
  unfold regionOut
  exact mlpT_congr (iblk m c 0 t) (iblk m c 1 t) (V m c main_v10) (V m c main_v17) (V m c main_v19) (V m c main_v21)
    (V m c main_v24) (V m c main_v23) (V m c main_v25) o r ⟨t.val * 8192 + r.val, by omega⟩
    (fun k => blk_user m c t r k _ rfl) (fun k => blk_movie m c t r k _ rfl)

/-! ## The cover, and the array after the run -/

/-- An index of the output is in point `t`'s block iff each coordinate is in the block's range on its axis. -/
theorem mem_blk (t : Fin cfg0.N) (i : S3x1007616.Idx) :
    i ∈ ((cfg0.win 7).blk t).view.set ↔ ∀ a : Fin 2, win0_7.index t a * S3x8192.size a ≤ (i a).val
      ∧ (i a).val < win0_7.index t a * S3x8192.size a + S3x8192.size a := by
  show i ∈ ((View.whole main_v26).slice (win0_7.rect t)).set ↔ _
  rw [View.set_slice_whole, Rect.mem_set_unit]
  exact Iff.rfl

/-- Every column of the output lies in the block of the point numbered by its tile. -/
theorem cover (i : S3x1007616.Idx) :
    ∃ t : Fin cfg0.N, (cfg0.win 7).flush t = true ∧ i ∈ ((cfg0.win 7).blk t).view.set := by
  have hi0 : (i 0).val < 3 := (i 0).isLt
  have hi1 : (i 1).val < 1007616 := (i 1).isLt
  have hlt : (i 1).val / 8192 < cfg0.N := by
    show (i 1).val / 8192 < grid0.N
    rw [N_0]; omega
  refine ⟨⟨(i 1).val / 8192, hlt⟩, flush0_7 _, ?_⟩
  rw [mem_blk]
  obtain ⟨-, -, -, -, -, -, -, -, -, -, -, -, -, -, e0, e1⟩ := idx_facts ⟨(i 1).val / 8192, hlt⟩
  intro a
  match a with
  | ⟨0, _⟩ =>
    show win0_7.index ⟨(i 1).val / 8192, hlt⟩ (0 : Fin 2) * 3 ≤ (i 0).val
      ∧ (i 0).val < win0_7.index ⟨(i 1).val / 8192, hlt⟩ (0 : Fin 2) * 3 + 3
    omega
  | ⟨1, _⟩ =>
    show win0_7.index ⟨(i 1).val / 8192, hlt⟩ (1 : Fin 2) * 8192 ≤ (i 1).val
      ∧ (i 1).val < win0_7.index ⟨(i 1).val / 8192, hlt⟩ (1 : Fin 2) * 8192 + 8192
    have e1' : win0_7.index ⟨(i 1).val / 8192, hlt⟩ (1 : Fin 2) = (i 1).val / 8192 := e1
    omega

/-- THE OUTPUT ARRAY after the run. -/
theorem final (c : Dev nD) : (dats m 0 c).arrAt 7 cfg0.N = regionOut m c :=
  (dats m 0 c).arrAt_eq_of_cover 7 (regionOut m c) (fun t _ => flushed_eq m c t) (cover)

end Cert.EdgeMlp.Region

end
-- ==== Proof.EntryArrays.lean ====
/-
  What the host lines before the tiled region prepare, as functions of the arguments, read at an index.

  The edge index words are padded with zeros from 1,000,000 to 1,007,616 entries (123 tiles of 8192), wrapped as
  array indexing wraps a negative index, and laid out as a column of start indices; below the original length the
  padded word is the argument's word. Each table is narrowed to the short float format (the identity on extended
  reals) and its rows gathered. `W1` is cut into its upper and lower 128 rows, `W2` is transposed, and the two
  biases are reshaped to a row and to a column.
-/
import proofs.«113925_j9320079033006_2_alg».proof.Proof.Gen.KernelIdeal
import proofs.«113925_j9320079033006_2_alg».proof.Proof.Spec
import Idealize.ShloMosaic.Lib.Pipeline.Value
import Idealize.ShloMosaic.Lib.KernelVsHost
import Idealize.ShloMosaic.Lib.ValueIdx

noncomputable section

namespace Cert.EdgeMlp.Entry

open Cert.KernelIdeal Cert.KernelIdeal.Gen Cert.EdgeMlp Cert.Lib.RowGather
open Idealize.ShloMosaic Idealize.ShloMosaic.ValueIdx

/-! ## The start indices -/

/-- The edge index words padded with zeros up to the tiled length. -/
def padded (x : IVec S1000000 32) : IVec S1007616 32 :=
  pad S1007616 ![0] ![7616] ![0] x (id (constantI S_ 32 0#32)) pads_S1000000_S1007616_076160 h_S_

/-- Below the original length the padded word is the argument's. -/
theorem padded_apply (x : IVec S1000000 32) (e' : Fin 1007616) (e : Fin 1000000) (he : e'.val = e.val) :
    padded x (ix1 e') = x (ix1 e) := by
  unfold padded
  exact pad_apply_of_inside (s := S1000000) (t := S1007616) ![0] ![7616] ![0] x (id (constantI S_ 32 0#32))
    pads_S1000000_S1007616_076160 h_S_ (ix1 e') (ix1 e)
    (fun a => by match a with | ⟨0, _⟩ => show e'.val = 0 + e.val * (0 + 1); omega)

/-- The padded words wrapped for a table of `n` rows, as a column of start indices. -/
def startCol (n : BitVec 32) (x : IVec S1000000 32) : IVec S1007616x1 32 :=
  broadcastInDim S1007616x1 ![0] bcast_S1007616_S1007616x1_0
    (select (cmpi .slt (padded x) (broadcastInDim S1007616 ![] bcast_S_S1007616 (constantI S_ 32 0#32)))
      (addi (padded x) (broadcastInDim S1007616 ![] bcast_S_S1007616 (constantI S_ 32 n))) (padded x))

/-- The start index of edge `e`: its word, wrapped. -/
theorem startCol_apply (n : BitVec 32) (x : IVec S1000000 32) (e' : Fin 1007616) (e : Fin 1000000)
    (he : e'.val = e.val) : startCol n x (ix2 e' 0) = wrapIdx n (x (ix1 e)) := by
  unfold startCol
  rw [broadcastInDim_apply _ bcast_S1007616_S1007616x1_0 _ (ix2 e' 0) (ix1 e') (fun a => by
    match a with
    | ⟨0, _⟩ => show e'.val = if (1007616 : Nat) = 1 then 0 else e'.val; rw [if_neg (by decide)])]
  show Scalar.select (IntOp.cmpi .slt (padded x (ix1 e')) 0#32) (IntOp.addi (padded x (ix1 e')) n) (padded x (ix1 e')) = _
  rw [padded_apply x e' e he]
  rfl

/-! ## The gathered rows -/

/-- The user rows of all padded edges. -/
def gatheredUser (zu : FVec Ideal S200000x128 .f32) (row : IVec S1000000 32) : FVec Ideal S1007616x128 .bf16 :=
  Host.gather gather_S200000x128_S1007616x1_S1007616x128_1_0_n_n_0_1_1128 (truncf .bf16 zu bitsLt_bf16_f32)
    (startCol 200000#32 row)

theorem gatheredUser_apply (zu : FVec Ideal S200000x128 .f32) (row : IVec S1000000 32) (e' : Fin 1007616)
    (e : Fin 1000000) (he : e'.val = e.val) (k : Fin 128) :
    gatheredUser zu row (ix2 e' k) = zu (ix2 (userRow (row (ix1 e))) k) := by
  unfold gatheredUser
  rw [show gather_S200000x128_S1007616x1_S1007616x128_1_0_n_n_0_1_1128
      = rowDims 200000 1007616 128 gather_S200000x128_S1007616x1_S1007616x128_1_0_n_n_0_1_1128_wf from rfl]
  rw [gather_rows_apply (by decide), startCol_apply _ _ e' e he]
  rfl

/-- The movie rows of all padded edges. -/
def gatheredMovie (zm : FVec Ideal S50000x128 .f32) (col : IVec S1000000 32) : FVec Ideal S1007616x128 .bf16 :=
  Host.gather gather_S50000x128_S1007616x1_S1007616x128_1_0_n_n_0_1_1128 (truncf .bf16 zm bitsLt_bf16_f32)
    (startCol 50000#32 col)

theorem gatheredMovie_apply (zm : FVec Ideal S50000x128 .f32) (col : IVec S1000000 32) (e' : Fin 1007616)
    (e : Fin 1000000) (he : e'.val = e.val) (k : Fin 128) :
    gatheredMovie zm col (ix2 e' k) = zm (ix2 (movieRow (col (ix1 e))) k) := by
  unfold gatheredMovie
  rw [show gather_S50000x128_S1007616x1_S1007616x128_1_0_n_n_0_1_1128
      = rowDims 50000 1007616 128 gather_S50000x128_S1007616x1_S1007616x128_1_0_n_n_0_1_1128_wf from rfl]
  rw [gather_rows_apply (by decide), startCol_apply _ _ e' e he]
  rfl

/-! ## The weights and the biases -/

/-- The upper 128 rows of `W1`. -/
def upperHalf (W1 : FVec Ideal S256x128 .f32) : FVec Ideal S128x128 .bf16 :=
  truncf .bf16 (extractStridedSlice S128x128 ![0, 0] W1 slices_S256x128_S128x128_0_0) bitsLt_bf16_f32

theorem upperHalf_apply (W1 : FVec Ideal S256x128 .f32) (k h : Fin 128) :
    upperHalf W1 (ix2 k h) = W1 (ix2 (upper k) h) := by
  unfold upperHalf
  rw [truncf_apply]
  exact extractStridedSlice_apply ![0, 0] W1 slices_S256x128_S128x128_0_0 (ix2 k h) (ix2 (upper k) h) (fun a => by
    match a with
    | ⟨0, _⟩ => show k.val = 0 + k.val; omega
    | ⟨1, _⟩ => show h.val = 0 + h.val; omega)

/-- The lower 128 rows of `W1`. -/
def lowerHalf (W1 : FVec Ideal S256x128 .f32) : FVec Ideal S128x128 .bf16 :=
  truncf .bf16 (extractStridedSlice S128x128 ![128, 0] W1 slices_S256x128_S128x128_128_0) bitsLt_bf16_f32

theorem lowerHalf_apply (W1 : FVec Ideal S256x128 .f32) (k h : Fin 128) :
    lowerHalf W1 (ix2 k h) = W1 (ix2 (lower k) h) := by
  unfold lowerHalf
  rw [truncf_apply]
  exact extractStridedSlice_apply ![128, 0] W1 slices_S256x128_S128x128_128_0 (ix2 k h) (ix2 (lower k) h) (fun a => by
    match a with
    | ⟨0, _⟩ => show 128 + k.val = 128 + k.val; rfl
    | ⟨1, _⟩ => show h.val = 0 + h.val; omega)

/-- `W2` transposed. -/
def transposedW2 (W2 : FVec Ideal S128x3 .f32) : FVec Ideal S3x128 .bf16 :=
  truncf .bf16 (transpose S3x128 [1, 0] W2 transposes_S128x3_S3x128_1_0) bitsLt_bf16_f32

theorem transposedW2_apply (W2 : FVec Ideal S128x3 .f32) (o : Fin 3) (h : Fin 128) :
    transposedW2 W2 (ix2 o h) = W2 (ix2 h o) := by
  unfold transposedW2
  rw [truncf_apply]
  exact transpose_apply [1, 0] W2 transposes_S128x3_S3x128_1_0 (ix2 o h) (ix2 h o) (fun b => by
    match b with
    | ⟨0, _⟩ => rfl
    | ⟨1, _⟩ => rfl)

/-- The hidden bias as a row. -/
def biasRow (b1 : FVec Ideal S128 .f32) : FVec Ideal S1x128 .f32 := shapeCast S1x128 b1 shapeCasts_S128_S1x128

theorem biasRow_apply (b1 : FVec Ideal S128 .f32) (h : Fin 128) : biasRow b1 (ix2 0 h) = b1 (ix1 h) :=
  shapeCast_apply b1 shapeCasts_S128_S1x128 (ix2 0 h) (ix1 h) (by
    rw [Shape.rowMajor_val_one, Shape.rowMajor_val_two]
    show h.val = 0 * 128 + h.val
    omega)

/-- The output bias as a column. -/
def biasCol (b2 : FVec Ideal S3 .f32) : FVec Ideal S3x1 .f32 := shapeCast S3x1 b2 shapeCasts_S3_S3x1

theorem biasCol_apply (b2 : FVec Ideal S3 .f32) (o : Fin 3) : biasCol b2 (ix2 o 0) = b2 (ix1 o) :=
  shapeCast_apply b2 shapeCasts_S3_S3x1 (ix2 o 0) (ix1 o) (by
    rw [Shape.rowMajor_val_one, Shape.rowMajor_val_two]
    show o.val = o.val * 1 + 0
    omega)

end Cert.EdgeMlp.Entry

end
-- ==== Proof.RegionEntry.lean ====
/-
  The arrays the tiled region finds when it is entered. Each of its seven input arrays was written by the host lines
  before it, from the arguments alone: the two gathered row arrays, the two halves of `W1`, the hidden bias as a row,
  `W2` transposed, and the output bias as a column.
-/
import proofs.«113925_j9320079033006_2_alg».proof.Proof.Gen.KernelIdeal.Frame
import proofs.«113925_j9320079033006_2_alg».proof.Proof.EntryArrays
import Idealize.ShloMosaic.Lib.StableHlo.Run

set_option maxRecDepth 16384

noncomputable section

namespace Cert.EdgeMlp.Region

open Cert.KernelIdeal Cert.KernelIdeal.Gen Cert.EdgeMlp
open Idealize.ShloMosaic Idealize.ShloMosaic.TcCoe Idealize.ShloMosaic.StableHlo Idealize.SL.Sem

variable (m : (ℓ : Loc nD τ sig) → Buf (Elt Ideal) ℓ)

set_option maxHeartbeats 2000000 in
/-- The gathered user rows. -/
theorem entry_user (c : Dev nD) :
    (V m c main_v10 : S1007616x128.Idx → EReal)
      = Entry.gatheredUser (m ((c : Thread nD τ).loc main_arg0)) (m ((c : Thread nD τ).loc main_arg2)) := by
  dsimp only [V, V0]
  simp only [hostOps0, hostOps0_1, hostOps0_2, hostOps0_3, hostOps0_4, List.flatten_cons, List.flatten_nil,
    List.append_nil, List.cons_append, List.nil_append]
  after_results
  rfl

set_option maxHeartbeats 2000000 in
/-- The gathered movie rows. -/
theorem entry_movie (c : Dev nD) :
    (V m c main_v17 : S1007616x128.Idx → EReal)
      = Entry.gatheredMovie (m ((c : Thread nD τ).loc main_arg1)) (m ((c : Thread nD τ).loc main_arg3)) := by
  dsimp only [V, V0]
  simp only [hostOps0, hostOps0_1, hostOps0_2, hostOps0_3, hostOps0_4, List.flatten_cons, List.flatten_nil,
    List.append_nil, List.cons_append, List.nil_append]
  after_results
  rfl

set_option maxHeartbeats 2000000 in
/-- The upper half of `W1`. -/
theorem entry_upper (c : Dev nD) :
    (V m c main_v19 : S128x128.Idx → EReal)
      = Entry.upperHalf (m ((c : Thread nD τ).loc main_arg4)) := by
  dsimp only [V, V0]
  simp only [hostOps0, hostOps0_1, hostOps0_2, hostOps0_3, hostOps0_4, List.flatten_cons, List.flatten_nil,
    List.append_nil, List.cons_append, List.nil_append]
  after_results
  rfl

set_option maxHeartbeats 2000000 in
/-- The lower half of `W1`. -/
theorem entry_lower (c : Dev nD) :
    (V m c main_v21 : S128x128.Idx → EReal)
      = Entry.lowerHalf (m ((c : Thread nD τ).loc main_arg4)) := by
  dsimp only [V, V0]
  simp only [hostOps0, hostOps0_1, hostOps0_2, hostOps0_3, hostOps0_4, List.flatten_cons, List.flatten_nil,
    List.append_nil, List.cons_append, List.nil_append]
  after_results
  rfl

set_option maxHeartbeats 2000000 in
/-- The hidden bias as a row. -/
theorem entry_biasRow (c : Dev nD) :
    (V m c main_v24 : S1x128.Idx → EReal)
      = Entry.biasRow (m ((c : Thread nD τ).loc main_arg5)) := by
  dsimp only [V, V0]
  simp only [hostOps0, hostOps0_1, hostOps0_2, hostOps0_3, hostOps0_4, List.flatten_cons, List.flatten_nil,
    List.append_nil, List.cons_append, List.nil_append]
  after_results
  rfl

set_option maxHeartbeats 2000000 in
/-- `W2` transposed. -/
theorem entry_w2t (c : Dev nD) :
    (V m c main_v23 : S3x128.Idx → EReal)
      = Entry.transposedW2 (m ((c : Thread nD τ).loc main_arg6)) := by
  dsimp only [V, V0]
  simp only [hostOps0, hostOps0_1, hostOps0_2, hostOps0_3, hostOps0_4, List.flatten_cons, List.flatten_nil,
    List.append_nil, List.cons_append, List.nil_append]
  after_results
  rfl

set_option maxHeartbeats 2000000 in
/-- The output bias as a column. -/
theorem entry_biasCol (c : Dev nD) :
    (V m c main_v25 : S3x1.Idx → EReal)
      = Entry.biasCol (m ((c : Thread nD τ).loc main_arg7)) := by
  dsimp only [V, V0]
  simp only [hostOps0, hostOps0_1, hostOps0_2, hostOps0_3, hostOps0_4, List.flatten_cons, List.flatten_nil,
    List.append_nil, List.cons_append, List.nil_append]
  after_results
  rfl

end Cert.EdgeMlp.Region

end
-- ==== Proof.KernelRun.lean ====
/-
  The tiled program's result. After the region the host drops the 7,616 padding columns of the 3 × 1,007,616 output
  and transposes it to 1,000,000 × 3. Entry `(e, o)` of the result is therefore entry `(o, e)` of the region's output,
  which reads row `e` of the gathered arrays; below the original length those are the rows the edge's own index words
  select, so the entry is the specification's.
-/
import proofs.«113925_j9320079033006_2_alg».proof.Proof.RegionBlocks
import proofs.«113925_j9320079033006_2_alg».proof.Proof.RegionEntry
import Idealize.ShloMosaic.Lib.StableHlo.Run

set_option maxRecDepth 16384

noncomputable section

namespace Cert.EdgeMlp.Region

open Cert.KernelIdeal Cert.KernelIdeal.Gen Cert.EdgeMlp
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The result buffer after the two host lines that follow the region: the region's output with the padding columns
    dropped, transposed. -/
theorem tail_eq (c : Dev nD) :
    (Pipeline.afterTail₀ cfgs (dats m) 0 (V0 m) [hostOps1] c main_v28 : S1000000x3.Idx → EReal)
      = transpose S1000000x3 [1, 0]
          (extractStridedSlice S3x1000000 ![0, 0] (regionOut m c) slices_S3x1007616_S3x1000000_0_0)
          transposes_S3x1000000_S1000000x3_1_0 := by
  have h26 := (Pipeline.withArrays_arr spec0 launch0.win.arr_inj c (V0 m c)
    (fun w => (dats m 0 c).arrAt w cfg0.N) 7).trans (final m c)
  unfold Pipeline.afterTail₀
  show StableHlo.after hostOps1 _ (Proc.devRef .tc main_v28) = _
  after_results
  exact congrArg (fun X : S3x1007616.Idx → EReal => transpose S1000000x3 [1, 0]
    (extractStridedSlice S3x1000000 ![0, 0] X slices_S3x1007616_S3x1000000_0_0)
    transposes_S3x1000000_S1000000x3_1_0) h26

/-- THE RESULT IS THE SPECIFICATION of the eight arguments. -/
theorem result_eq (c : Dev nD) :
    (Pipeline.afterTail₀ cfgs (dats m) 0 (V0 m) [hostOps1] c main_v28 : S1000000x3.Idx → EReal)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [tail_eq]
  funext i
  obtain ⟨e, o, rfl⟩ : ∃ (e : Fin 1000000) (o : Fin 3), i = ix2 e o := ⟨i 0, i 1, eq_ix2 i⟩
  have he : e.val < 1000000 := e.isLt
  rw [transpose_apply [1, 0] _ transposes_S3x1000000_S1000000x3_1_0 (ix2 e o) (ix2 o e) (fun b => by
      match b with
      | ⟨0, _⟩ => rfl
      | ⟨1, _⟩ => rfl),
    extractStridedSlice_apply ![0, 0] (regionOut m c) slices_S3x1007616_S3x1000000_0_0 (ix2 o e)
      (ix2 o (⟨e.val, by omega⟩ : Fin 1007616)) (fun a => by
      match a with
      | ⟨0, _⟩ => show o.val = 0 + o.val; omega
      | ⟨1, _⟩ => show e.val = 0 + e.val; omega)]
  unfold regionOut
  rw [entry_user, entry_movie, entry_upper, entry_lower, entry_biasRow, entry_w2t, entry_biasCol]
  exact mlpT_eq_G _ _ _ _ _ _ _ _ _ _ _ _ _ _ _ e ⟨e.val, by omega⟩ o
    (fun k => Entry.gatheredUser_apply _ _ _ e rfl k) (fun k => Entry.gatheredMovie_apply _ _ _ e rfl k)
    (fun k h => Entry.upperHalf_apply _ k h) (fun k h => Entry.lowerHalf_apply _ k h)
    (fun h => Entry.biasRow_apply _ h) (fun h => Entry.transposedW2_apply _ o h) (Entry.biasCol_apply _ o)

/-- THE RUN: every weakly fair execution of the tiled program terminates with the result buffer at the specification
    of the arguments and the arguments unchanged. -/
theorem run : θ_run defs (onTc (τ := τ) (main (F := Ideal))) ⟨m, fun _ => 0, ρ⟩ (fun r => ∀ c : Dev nD,
      r.2.mem ((c.tc : Thread nD τ).loc main_v28) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v28 (Pipeline.mem_restRefs_of main_v28 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.EdgeMlp.Region

end
-- ==== Proof.lean ====
/-
  An edge decoder against its plain reference, over the extended reals.

  Both programs take two embedding tables, a row and a column index per edge, and the weights and biases of a two-layer
  perceptron. For edge `e` they gather `u = z_user[row e]` and `v = z_movie[col e]` and return, for each of the three
  outputs `o`,

      out[e, o] = (∑ h < 128, max ((∑ k < 128, u k · W1[k, h]) + (∑ k < 128, v k · W1[128 + k, h]) + b1 h) 0 · W2[h, o]) + b2 o.

  The reference concatenates `[u | v]` and multiplies by all 256 rows of `W1` at once; the tiled program pads the edges
  with index `0` to 123 tiles of 8192, multiplies `u` and `v` by the two halves of `W1` separately, computes the result
  transposed, and afterwards drops the padding and transposes back. Over the extended reals the narrowing of the
  operands to a short float format is the identity, a matrix product into a zero accumulator is the plain sum, and the
  two arrangements differ only by splitting a sum over 256 terms into two of 128 and by the order of two factors: laws
  of any commutative semiring. No entry needs to be finite, so the precondition is never opened. A negative index
  wraps and an out-of-range one is clamped in the same way in both programs, so the index words may be anything.

  The three frames: the tiled program's and its idealization's are the generated frame runs; the reference has no
  region, and its frame is its run with the result forgotten. The idealization rewrote no operation, so there is nothing
  to preserve. The value claim pairs the two runs at the specification `G` of the arguments.
-/
import proofs.«113925_j9320079033006_2_alg».proof.Defs
import proofs.«113925_j9320079033006_2_alg».proof.Proof.Gen.Kernel
import proofs.«113925_j9320079033006_2_alg».proof.Proof.Gen.Kernel.Skeleton
import proofs.«113925_j9320079033006_2_alg».proof.Proof.Gen.Kernel.Launch
import proofs.«113925_j9320079033006_2_alg».proof.Proof.Gen.Kernel.Points
import proofs.«113925_j9320079033006_2_alg».proof.Proof.Gen.Kernel.Frame
import proofs.«113925_j9320079033006_2_alg».proof.Proof.Gen.KernelIdeal
import proofs.«113925_j9320079033006_2_alg».proof.Proof.Gen.KernelIdeal.Skeleton
import proofs.«113925_j9320079033006_2_alg».proof.Proof.Gen.KernelIdeal.Launch
import proofs.«113925_j9320079033006_2_alg».proof.Proof.Gen.KernelIdeal.Points
import proofs.«113925_j9320079033006_2_alg».proof.Proof.Gen.KernelIdeal.Frame
import proofs.«113925_j9320079033006_2_alg».proof.Proof.Gen.ReferenceIdeal
import proofs.«113925_j9320079033006_2_alg».proof.Proof.Gen.Pre_finite_inputs
import proofs.«113925_j9320079033006_2_alg».proof.Proof.Gen.ReferenceIdeal.Run
import proofs.«113925_j9320079033006_2_alg».proof.Proof.Gen.ReferenceIdeal.Read
import proofs.«113925_j9320079033006_2_alg».proof.Proof.RefIsSpec
import proofs.«113925_j9320079033006_2_alg».proof.Proof.KernelRun
import Idealize.ShloMosaic.Adequacy
import Idealize.ShloMosaic.Init

noncomputable section

namespace Cert.Proof

open Idealize.ShloMosaic Idealize.ShloMosaic.TcCoe Idealize.SL.Sem

/-- The tiled program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the tiled program ends with its result at the specification of the
    arguments, and the reference ends with its last stage, which is the same specification of its own, equal, arguments. -/
theorem algebraic : Cert.algebraic_KernelIdeal_ReferenceIdeal := by
  intro m ρ m' ρ' _ hagree
  refine ⟨fun c => Cert.EdgeMlp.G
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
    Cert.EdgeMlp.Region.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  rw [(h c).1, Cert.ReferenceIdeal.Read.val_main_v23_eq, Cert.EdgeMlp.Ref.ref_eq_G, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
